-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : IVec S262144 32) (main_arg1 : IVec S262144 32) (main_arg2 : IVec S262144 32) (main_arg3 : FVec F S1000000x128 .f32) (main_arg4 : FVec F S1000x128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000x128 .f32 := Host.absf main_arg4
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩
abbrev S262144x1 : Shape := ⟨2, ![262144, 1]⟩
abbrev S262144x128 : Shape := ⟨2, ![262144, 128]⟩
abbrev S8192x128 : Shape := ⟨2, ![8192, 128]⟩
abbrev S8192 : Shape := ⟨1, ![8192]⟩

abbrev nBuf : Space → Nat
  | .hbm => 36
  | .vmem => 8
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S1000000x128, .f32⟩
  | .hbm, ⟨4, _⟩ => ⟨S1000x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S262144x128, .bf16⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x128, .f32⟩
  | .hbm, ⟨24, _⟩ => ⟨S262144x128, .bf16⟩
  | .hbm, ⟨25, _⟩ => ⟨S_, .i32⟩
  | .hbm, ⟨26, _⟩ => ⟨S262144, .i32⟩
  | .hbm, ⟨27, _⟩ => ⟨S262144, .i1⟩
  | .hbm, ⟨28, _⟩ => ⟨S_, .i32⟩
  | .hbm, ⟨29, _⟩ => ⟨S262144, .i32⟩
  | .hbm, ⟨30, _⟩ => ⟨S262144, .i32⟩
  | .hbm, ⟨31, _⟩ => ⟨S262144, .i32⟩
  | .hbm, ⟨32, _⟩ => ⟨S262144x1, .i32⟩
  | .hbm, ⟨33, _⟩ => ⟨S262144x128, .f32⟩
  | .hbm, ⟨34, _⟩ => ⟨S262144x128, .bf16⟩
  | .hbm, ⟨35, _⟩ => ⟨S262144, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192, .f32⟩
  | .local _ .vmem, ⟨7, _⟩ => ⟨S8192, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  gather_S1000000x128_S262144x1_S262144x128_1_0_n_n_0_1_1128_wf : GatherDims.WF S1000000x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .bf16 = 32 ∨ (Rect.block (s := S262144x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .bf16 = 32 ∨ (Rect.block (s := S262144x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .bf16 = 32 ∨ (Rect.block (s := S262144x128) S8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S262144.size a
  hwx0_3 : ∀ i : grid0.Coords, EltTy.bits .f32 = 32 ∨ (Rect.block (s := S262144) S8192.size (cc0_transform_3 i) (hinb0_3 i)).WholeWords (EltTy.packing .f32)

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf

abbrev win0_0 : Pipeline.Window sig grid0 :=
  Pipeline.Window.ofSpec (Memref.whole main_v7) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩
abbrev S262144x1 : Shape := ⟨2, ![262144, 1]⟩
abbrev S262144x128 : Shape := ⟨2, ![262144, 128]⟩

abbrev nBuf : Space → Nat
  | .hbm => 44
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S1000000x128, .f32⟩
  | .hbm, ⟨4, _⟩ => ⟨S1000x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x128, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S262144, .f32⟩
  | .hbm, ⟨43, _⟩ => ⟨S262144, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x128_S262144_d1 : S262144x128.ReducesTo [1] S262144
  h_S_ : 0 < S_.numel
  gather_S1000000x128_S262144x1_S262144x128_1_0_n_n_0_1_1128_wf : GatherDims.WF S1000000x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf

class Facts : Prop extends Facts₀ where

variable [Facts]
-- ==== Proof.Score.lean ====
/-
  The DistMult score, as ONE function of three tables of embeddings.

  For tables `h`, `r`, `t` of `R` rows and 128 lanes (entries extended reals), the score of row `a` is

      score h r t a = σ ( Σ_{k < 128} (h[a,k] · r[a,k]) · t[a,k] ),      σ x = 1 / (1 + e^(-x)),

  with the extended reals' product, sum, exponential and quotient (`Ideal.logistic`: σ(⊥) = 0, σ(⊤) = 1). The products
  are associated as written, (h·r)·t, on both sides of the certificate, so no law of the extended reals beyond the
  definition of σ is used here: nothing is distributed, nothing is cancelled, and no entry needs to be finite.

  Two readings of this one function are proved:
  * `body_score` — a vector body that widens three [R,128] blocks, multiplies them lane by lane as (h·r)·t, adds each
    row's 128 lanes from the zero word and applies the one-operation logistic, read at row `a`, is `score` at `a`
    (widening a narrower float format is the identity on the extended reals; the lane sum from the additive neutral is the
    plain finite sum);
  * `spelled_sigmoid` — the quotient `1 / (1 + exp (-x))` spelt with the word 1.0 = 0x3F800000 twice is σ(x), because that
    word denotes the real number 1.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace DistMult

open Idealize.ShloMosaic Idealize.ShloMosaic.ValueIdx

/-- The shape of a table of `R` rows of 128 lanes, and of a column of `R` scores. -/
abbrev Tab (R : Nat) : Shape := ⟨2, ![R, 128]⟩
abbrev Col (R : Nat) : Shape := ⟨1, ![R]⟩

/-- The score of row `a`: the logistic of the sum over the 128 lanes of `(h·r)·t`. -/
def score {R : Nat} (h r t : (Tab R).Idx → EReal) (a : Fin R) : EReal :=
  Ideal.logistic (∑ k : Fin 128, h (ix2 a k) * r (ix2 a k) * t (ix2 a k))

/-- The score depends only on the three tables: equal tables give equal scores, row by row. -/
theorem score_congr {R : Nat} {h h' r r' t t' : (Tab R).Idx → EReal} (eh : h = h') (er : r = r') (et : t = t')
    (a : Fin R) : score h r t a = score h' r' t' a := by
  subst eh er et; rfl

/-- The word 0x3F800000 is the real number 1. -/
theorem word_one : Ideal.ofBits .f32 0x3F800000#32 = 1 := by
  simp [Ideal.ofBits, Ideal.ieee, -EReal.coe_mul]; norm_num

/-- `1 / (1 + exp (-x))`, spelt on the host with the word 1.0 for both ones, is the logistic of `x`. -/
theorem spelled_sigmoid (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.div 1 (1 + Ideal.exp (-x))
  rw [word_one]

/-- Row `a`'s lane sum from the additive neutral is the plain sum over the 128 lanes: the source index over the row
    index `a` with lane `k` inserted on axis 1 is `(a, k)`. -/
theorem lane_sum {R : Nat} (src : FVec Ideal (Tab R) .f32) (hred : (Tab R).Reduces [1] (Col R))
    (hφ : FKind.Formats .f32) (hacc : (0x00000000#32 : BitVec (FTy.bits .f32)) = FKind.add.neutral .f32 hφ) (a : Fin R) :
    multiReduction .add [1] (Col R) src 0x00000000#32 hred hφ hacc (ix1 a) = ∑ k : Fin 128, src (ix2 a k) := by
  refine (Ideal.multiReduction_add_single src 0x00000000#32 hred hφ hacc (ix1 a)).trans ?_
  refine Finset.sum_congr rfl fun k _ => congrArg src ?_
  funext d
  apply Fin.ext
  rw [hred.lift_val]
  unfold Shape.Reduces.liftVal
  match d with
  | ⟨0, _⟩ => rfl
  | ⟨1, _⟩ => rfl

/-- The vector body read at row `a`: widen, multiply as (h·r)·t, add the lanes from zero, apply the logistic. -/
theorem body_score {R : Nat} (P0 P1 P2 : FVec Ideal (Tab R) .bf16) (hc : (Tab R).ShapeCasts (Tab R))
    (hb : FTy.bits .bf16 < FTy.bits .f32) (hred : (Tab R).Reduces [1] (Col R))
    (hφ : FKind.Formats .f32) (hacc : (0x00000000#32 : BitVec (FTy.bits .f32)) = FKind.add.neutral .f32 hφ) (a : Fin R) :
    FloatOps.logistic (F := Ideal) (φ := .f32)
        (multiReduction .add [1] (Col R)
          (mulf (mulf (extf .f32 (shapeCast (Tab R) P0 hc) hb) (extf .f32 (shapeCast (Tab R) P1 hc) hb))
            (extf .f32 (shapeCast (Tab R) P2 hc) hb))
          0x00000000#32 hred hφ hacc (ix1 a))
      = score P0 P1 P2 a := by
  show Ideal.logistic _ = Ideal.logistic _
  refine congrArg Ideal.logistic ((lane_sum _ hred hφ hacc a).trans ?_)
  refine Finset.sum_congr rfl fun k _ => ?_
  rw [shapeCast_self, shapeCast_self, shapeCast_self]
  rfl

end DistMult

end
-- ==== Proof.KernelValue.lean ====
/-
  What the kernel's result array holds at the extended reals: the DistMult score of every row.

  The region stages three [262144, 128] tables — the looked-up head, tail and relation rows, each narrowed to the shorter
  float format on the host, which on the extended reals changes nothing — in blocks of 8192 rows, one block per grid point
  `t` (32 points), and writes back one block of 8192 scores per point.

  * `rows_heads`, `rows_tails`, `rows_rels`: the block of a table staged at point `t`, read at row `y` and lane `k`, is the
    table at row `8192·t + y`, lane `k` (a block's coordinate is block index × block size + the coordinate inside it).
  * `block_score`: the body's one store, as a function of the three loaded blocks, is `DistMult.score` of the blocks
    (with the relation block second: the body multiplies (head · relation) · tail).
  * `flushed_eq`: so what point `t` writes back is block `t` of `scores`, the score of every row of the whole tables.
  * `cover`: row `i` lies in the block of point `i / 8192`; every point writes back.
  * `final`, `run`: hence the result array ends holding `scores`, the arguments unchanged.
  * `heads_eq`, `tails_eq`, `rels_eq`: the staged tables are the host's row lookups of the argument tables at the
    argument row numbers (a negative number counting from the table's end), narrowed.
-/
import proofs.«150849_j23536420782557_2_alg».proof.Proof.Gen.KernelIdeal.Value
import proofs.«150849_j23536420782557_2_alg».proof.Proof.Score
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scores

open Cert.KernelIdeal Cert.KernelIdeal.Gen Cert.KernelIdeal.Value

variable (m : (ℓ : Loc nD τ sig) → Buf (Elt Ideal) ℓ) (ρ : Dev nD → PrngReg)

/-- The three tables as the region finds them. -/
abbrev heads (c : Dev nD) : S262144x128.Idx → EReal := V m c main_v7
abbrev tails (c : Dev nD) : S262144x128.Idx → EReal := V m c main_v15
abbrev rels (c : Dev nD) : S262144x128.Idx → EReal := V m c main_v23

/-- The score of every row of the staged tables. -/
def scores (c : Dev nD) : S262144.Idx → EReal :=
  fun j => DistMult.score (heads m c) (rels m c) (tails m c) (j 0)

theorem hz2 : (![0, 0] : Fin 2 → Nat) = fun _ => 0 := funext fun a => by fin_cases a <;> rfl

/-- Over the 32 grid points: every input window's block index is `(t, 0)` and the output's is `(t)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

/-- The head block staged at point `t`, at row `y` and lane `k`, is the head table at row `8192·t + y`, lane `k`. -/
theorem rows_heads (c : Dev nD) (t : Fin cfg0.N) (x : S8192x128.Idx) (i : S262144x128.Idx)
    (h0 : (i 0).val = 8192 * t.val + (x 0).val) (h1 : (i 1).val = (x 1).val) :
    (iblk m c 0 t : Vec Ideal S8192x128 .bf16) x = heads m c i := by
  obtain ⟨e0, e1, -, -, -, -, -⟩ := idx_facts t
  unfold iblk
  rw [View.read_apply]
  show V m c main_v7 _ = V m c main_v7 _
  congr 1
  funext a
  apply Fin.ext
  match a with
  | ⟨0, _⟩ => show win0_0.index t (0 : Fin 2) * 8192 + 1 * (x 0).val = (i 0).val; rw [e0, h0]; omega
  | ⟨1, _⟩ => show win0_0.index t (1 : Fin 2) * 128 + 1 * (x 1).val = (i 1).val; rw [e1, h1]; omega

/-- The tail block staged at point `t`, at row `y` and lane `k`, is the tail table at row `8192·t + y`, lane `k`. -/
theorem rows_tails (c : Dev nD) (t : Fin cfg0.N) (x : S8192x128.Idx) (i : S262144x128.Idx)
    (h0 : (i 0).val = 8192 * t.val + (x 0).val) (h1 : (i 1).val = (x 1).val) :
    (iblk m c 1 t : Vec Ideal S8192x128 .bf16) x = tails m c i := by
  obtain ⟨-, -, e0, e1, -, -, -⟩ := idx_facts t
  unfold iblk
  rw [View.read_apply]
  show V m c main_v15 _ = V m c main_v15 _
  congr 1
  funext a
  apply Fin.ext
  match a with
  | ⟨0, _⟩ => show win0_1.index t (0 : Fin 2) * 8192 + 1 * (x 0).val = (i 0).val; rw [e0, h0]; omega
  | ⟨1, _⟩ => show win0_1.index t (1 : Fin 2) * 128 + 1 * (x 1).val = (i 1).val; rw [e1, h1]; omega

/-- The relation block staged at point `t`, at row `y` and lane `k`, is the relation table at row `8192·t + y`, lane `k`. -/
theorem rows_rels (c : Dev nD) (t : Fin cfg0.N) (x : S8192x128.Idx) (i : S262144x128.Idx)
    (h0 : (i 0).val = 8192 * t.val + (x 0).val) (h1 : (i 1).val = (x 1).val) :
    (iblk m c 2 t : Vec Ideal S8192x128 .bf16) x = rels m c i := by
  obtain ⟨-, -, -, -, e0, e1, -⟩ := idx_facts t
  unfold iblk
  rw [View.read_apply]
  show V m c main_v23 _ = V m c main_v23 _
  congr 1
  funext a
  apply Fin.ext
  match a with
  | ⟨0, _⟩ => show win0_2.index t (0 : Fin 2) * 8192 + 1 * (x 0).val = (i 0).val; rw [e0, h0]; omega
  | ⟨1, _⟩ => show win0_2.index t (1 : Fin 2) * 128 + 1 * (x 1).val = (i 1).val; rw [e1, h1]; omega

/-- The body's one store, as a function of three loaded blocks `Ph`, `Pr`, `Pt` (heads, relations, tails), read at
    row `y` of the block: the score of that row of the blocks. -/
theorem block_score (Ph Pr Pt : Vec Ideal S8192x128 .bf16) (y : S8192.Idx) :
    E3 (F := Ideal) Ph Pr Pt y = DistMult.score Ph Pr Pt (y 0) := by
  have e : ix3_0 y = ix1 (y 0) := funext fun a => by match a with | ⟨0, _⟩ => rfl
  show FloatOps.logistic (F := Ideal) (φ := .f32) (multiReduction .add [1] S8192 _ 0x00000000#32 reduces_S8192x128_S8192 (.inl rfl) rfl (ix3_0 y)) = _
  rw [e]
  exact DistMult.body_score Ph Pr Pt shapeCasts_S8192x128_S8192x128 bitsLt_bf16_f32 reduces_S8192x128_S8192 (.inl rfl) rfl (y 0)

/-- WHAT POINT `t` WRITES BACK is block `t` of `scores`: row `y` of the block is row `8192·t + y` of the tables. -/
theorem flushed_eq (c : Dev nD) (t : Fin cfg0.N) :
    (dats m 0 c).flushed 3 t = ((cfg0.win 3).blk t).view.read (Elt Ideal) (scores m c) := by
  obtain ⟨-, -, -, -, -, -, e3⟩ := idx_facts t
  rw [flushed3]
  unfold out0_3
  simp only [View.ld_unit_zero (S := S8192x128) hz2]
  funext y
  show View.canon [(⟨r0_1, k0_pay1 (iblk m c 0 t) (iblk m c 1 t) (iblk m c 2 t)⟩ : View.Piece (Elt Ideal) S8192 .f32)] y
    = scores m c (((cfg0.win 3).blk t).view.emb y)
  refine (canon3_eq (F := Ideal) (iblk m c 0 t) (iblk m c 2 t) (iblk m c 1 t) y).trans ?_
  refine (block_score (iblk m c 0 t) (iblk m c 2 t) (iblk m c 1 t) y).trans ?_
  have hrow : ((((cfg0.win 3).blk t).view.emb y) 0).val = 8192 * t.val + (y 0).val := by
    show win0_3.index t (0 : Fin 1) * 8192 + 1 * (y 0).val = _
    rw [e3]; omega
  unfold scores DistMult.score
  refine congrArg Ideal.logistic (Finset.sum_congr rfl fun k _ => ?_)
  rw [rows_heads m c t (ix2 (y 0) k) (ix2 ((((cfg0.win 3).blk t).view.emb y) 0) k) hrow rfl,
    rows_rels m c t (ix2 (y 0) k) (ix2 ((((cfg0.win 3).blk t).view.emb y) 0) k) hrow rfl,
    rows_tails m c t (ix2 (y 0) k) (ix2 ((((cfg0.win 3).blk t).view.emb y) 0) k) hrow rfl]

/-- Row `i` of the result lies in the block of point `i / 8192`, and every point writes its block back. -/
theorem cover (i : S262144.Idx) :
    ∃ t : Fin cfg0.N, (cfg0.win 3).flush t = true ∧ i ∈ ((cfg0.win 3).blk t).view.set := by
  have hi : (i 0).val < 262144 := (i 0).isLt
  have hN : cfg0.N = 32 := N_0
  have ht : (i 0).val / 8192 < cfg0.N := by rw [hN]; omega
  obtain ⟨-, -, -, -, -, -, e3⟩ := idx_facts ⟨(i 0).val / 8192, ht⟩
  refine ⟨⟨(i 0).val / 8192, ht⟩, flush0_3 _, ?_⟩
  show i ∈ ((View.whole main_v24).slice (win0_3.rect ⟨(i 0).val / 8192, ht⟩)).set
  rw [View.set_slice_whole, Rect.mem_set_unit]
  intro a
  match a with
  | ⟨0, _⟩ =>
    show win0_3.index ⟨(i 0).val / 8192, ht⟩ (0 : Fin 1) * 8192 ≤ (i 0).val
      ∧ (i 0).val < win0_3.index ⟨(i 0).val / 8192, ht⟩ (0 : Fin 1) * 8192 + 8192
    rw [e3]
    show (i 0).val / 8192 * 8192 ≤ (i 0).val ∧ (i 0).val < (i 0).val / 8192 * 8192 + 8192
    omega

/-- THE RESULT ARRAY after the run is `scores`: the 32 written-back blocks tile it. -/
theorem final (c : Dev nD) : (dats m 0 c).arrAt 3 cfg0.N = scores m c :=
  (dats m 0 c).arrAt_eq_of_cover 3 (scores m c) (fun t _ => flushed_eq m c t) cover

/-- The run, read: the result array at the score of every row of the staged tables, the arguments unchanged. -/
theorem run : θ_run defs (onTc (τ := τ) (main (F := Ideal))) ⟨m, fun _ => 0, ρ⟩ fun r => ∀ c : Dev nD,
      r.2.mem ((c : Thread nD τ).loc main_v24) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-! ## The staged tables are the host's row lookups -/

/-- The head table: the entity table's rows at the head numbers (a negative number counting from the table's end), narrowed. -/
theorem heads_eq (c : Dev nD) : heads m c
    = truncf (F := Ideal) .bf16 (Host.gather gather_S1000000x128_S262144x1_S262144x128_1_0_n_n_0_1_1128 (m ((c : Thread nD τ).loc main_arg3) : (⟨S1000000x128, .f32⟩ : BufTy).Contents (Elt Ideal))
        (broadcastInDim S262144x1 ![0] bcast_S262144_S262144x1_0 (select (cmpi .slt (m ((c : Thread nD τ).loc main_arg0)) (broadcastInDim S262144 ![] bcast_S_S262144 (constantI S_ 32 0#32))) (addi (m ((c : Thread nD τ).loc main_arg0)) (broadcastInDim S262144 ![] bcast_S_S262144 (constantI S_ 32 1000000#32))) (m ((c : Thread nD τ).loc main_arg0))))) bitsLt_bf16_f32 := by
  dsimp only [heads, V, hostOps0]; after_results

/-- The tail table: the entity table's rows at the tail numbers, narrowed. -/
theorem tails_eq (c : Dev nD) : tails m c
    = truncf (F := Ideal) .bf16 (Host.gather gather_S1000000x128_S262144x1_S262144x128_1_0_n_n_0_1_1128 (m ((c : Thread nD τ).loc main_arg3) : (⟨S1000000x128, .f32⟩ : BufTy).Contents (Elt Ideal))
        (broadcastInDim S262144x1 ![0] bcast_S262144_S262144x1_0 (select (cmpi .slt (m ((c : Thread nD τ).loc main_arg1)) (broadcastInDim S262144 ![] bcast_S_S262144 (constantI S_ 32 0#32))) (addi (m ((c : Thread nD τ).loc main_arg1)) (broadcastInDim S262144 ![] bcast_S_S262144 (constantI S_ 32 1000000#32))) (m ((c : Thread nD τ).loc main_arg1))))) bitsLt_bf16_f32 := by
  dsimp only [tails, V, hostOps0]; after_results

set_option maxHeartbeats 2000000 in
/-- The relation table: the relation table's rows at the relation numbers, narrowed. -/
theorem rels_eq (c : Dev nD) : rels m c
    = truncf (F := Ideal) .bf16 (Host.gather gather_S1000x128_S262144x1_S262144x128_1_0_n_n_0_1_1128 (m ((c : Thread nD τ).loc main_arg4) : (⟨S1000x128, .f32⟩ : BufTy).Contents (Elt Ideal))
        (broadcastInDim S262144x1 ![0] bcast_S262144_S262144x1_0 (select (cmpi .slt (m ((c : Thread nD τ).loc main_arg2)) (broadcastInDim S262144 ![] bcast_S_S262144 (constantI S_ 32 0#32))) (addi (m ((c : Thread nD τ).loc main_arg2)) (broadcastInDim S262144 ![] bcast_S_S262144 (constantI S_ 32 1000#32))) (m ((c : Thread nD τ).loc main_arg2))))) bitsLt_bf16_f32 := by
  dsimp only [rels, V, hostOps0]; after_results

end Cert.KernelIdeal.Scores

end
-- ==== Proof.RefValue.lean ====
/-
  What the reference computes at the extended reals: the DistMult score of every row of its three looked-up tables.

  The reference looks up the head, relation and tail rows, multiplies them lane by lane as (head · relation) · tail, adds
  each row's 128 lanes starting from the zero word, and applies `1 / (1 + exp (-x))` spelt as four host operations
  (negate, exponential, add to the word 1.0, divide the word 1.0 by the result). Read at row `j`:
  the zero word is the real number 0, so the lane sum from it is the plain sum; the word 1.0 is the real number 1, so the
  four operations are the logistic (`DistMult.spelled_sigmoid`); the index of row `j`, lane `k` is `(j, k)`.
-/
import proofs.«150849_j23536420782557_2_alg».proof.Proof.Gen.ReferenceIdeal.Read
import proofs.«150849_j23536420782557_2_alg».proof.Proof.Score
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.Scores

open Cert.ReferenceIdeal Cert.ReferenceIdeal.Gen Cert.ReferenceIdeal.Read

/-- THE REFERENCE'S RESULT at row `j` is the score of row `j` of the looked-up head, relation and tail tables. -/
theorem result_apply (x0 x1 x2 : (⟨S262144, .i32⟩ : BufTy).Contents (Elt Ideal))
    (x3 : (⟨S1000000x128, .f32⟩ : BufTy).Contents (Elt Ideal)) (x4 : (⟨S1000x128, .f32⟩ : BufTy).Contents (Elt Ideal))
    (j : S262144.Idx) :
    val_main_v29 (F := Ideal) x0 x1 x2 x3 x4 j
      = DistMult.score (val_main_v6 (F := Ideal) x0 x3) (val_main_v20 (F := Ideal) x2 x4) (val_main_v13 (F := Ideal) x1 x3) (j 0) := by
  rw [val_main_v29_apply, val_main_v28_apply, val_main_cst_6_apply, val_main_v27_apply, val_main_v26_apply,
    val_main_cst_5_apply, val_main_v25_apply, val_main_v24_apply, val_main_v23_apply]
  refine (DistMult.spelled_sigmoid _).trans ?_
  unfold DistMult.score
  refine congrArg Ideal.logistic ?_
  rw [val_main_cst_apply, Ideal.ofBits_def, Ideal.ofBits_zero_f32, zero_add]
  refine Finset.sum_congr rfl fun k _ => ?_
  have e : idx_main_v23 j k = ix2 (j 0) k := funext fun a => by match a with | ⟨0, _⟩ => rfl | ⟨1, _⟩ => rfl
  rw [val_main_v22_apply, val_main_v21_apply, e]
  rfl

end Cert.ReferenceIdeal.Scores

end
-- ==== Proof.lean ====
/-
  DistMult scoring: a fused kernel against its plain reference, equal over the extended reals.

  Both programs look up, for each of 262144 triples, a head row and a tail row of the entity table and a row of the
  relation table (the same host lookups at the same row numbers, a negative number counting from the table's end), and
  both return, for row `j`,

      σ ( Σ_{k < 128} (head[j,k] · relation[j,k]) · tail[j,k] ),      σ x = 1 / (1 + e^(-x)).

  They differ only in how this is spelt. The kernel narrows the three looked-up tables to a shorter float format on the
  host, widens them again inside the body (both are the identity on the extended reals), works on blocks of 8192 rows, one
  per grid point, adds a row's lanes with one vector reduction from the zero word and applies the logistic as one
  operation. The reference multiplies and adds the whole tables on the host and spells the logistic as negate, exponential,
  add to 1, divide 1 by the result. The products are associated the same way on both sides, so the two results are one
  function of the arguments (`DistMult.score`, Proof/Score.lean) with no appeal to distributivity or cancellation: the
  precondition that the inputs are finite is never opened.

  * Proof/KernelValue.lean: the kernel's result array ends holding `Scores.scores`, the score of every row of the staged
    tables, and the staged tables are the narrowed host lookups.
  * Proof/RefValue.lean: the reference's result at row `j` is the score of row `j` of its looked-up tables.
  * Here: the three frames (the two kernels' from the frame run, the reference's from its run with the result dropped),
    the empty list of idealization steps, and the equality of the two results.
-/
import proofs.«150849_j23536420782557_2_alg».proof.Defs
import proofs.«150849_j23536420782557_2_alg».proof.Proof.Gen.Kernel
import proofs.«150849_j23536420782557_2_alg».proof.Proof.Gen.Kernel.Frame
import proofs.«150849_j23536420782557_2_alg».proof.Proof.Gen.KernelIdeal
import proofs.«150849_j23536420782557_2_alg».proof.Proof.Gen.KernelIdeal.Frame
import proofs.«150849_j23536420782557_2_alg».proof.Proof.Gen.KernelIdeal.Value
import proofs.«150849_j23536420782557_2_alg».proof.Proof.Gen.ReferenceIdeal
import proofs.«150849_j23536420782557_2_alg».proof.Proof.Gen.ReferenceIdeal.Run
import proofs.«150849_j23536420782557_2_alg».proof.Proof.Gen.ReferenceIdeal.Read
import proofs.«150849_j23536420782557_2_alg».proof.Proof.Gen.Pre_finite_inputs
import proofs.«150849_j23536420782557_2_alg».proof.Proof.Score
import proofs.«150849_j23536420782557_2_alg».proof.Proof.KernelValue
import proofs.«150849_j23536420782557_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference has no region: its frame is its run with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-! The kernel's staged tables are the reference's lookups: the same host lookup of the same argument table at the same
    row numbers, followed on the kernel's side by a narrowing that is the identity on the extended reals. -/

theorem heads_agree (m : (ℓ : Loc Cert.KernelIdeal.nD Cert.KernelIdeal.τ Cert.KernelIdeal.sig) → Buf (Elt Ideal) ℓ)
    (c : Dev Cert.KernelIdeal.nD) :
    Cert.KernelIdeal.Scores.heads m c
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg3)) :=
  (Cert.KernelIdeal.Scores.heads_eq m c).trans rfl

theorem tails_agree (m : (ℓ : Loc Cert.KernelIdeal.nD Cert.KernelIdeal.τ Cert.KernelIdeal.sig) → Buf (Elt Ideal) ℓ)
    (c : Dev Cert.KernelIdeal.nD) :
    Cert.KernelIdeal.Scores.tails m c
      = Cert.ReferenceIdeal.Read.val_main_v13 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) :=
  (Cert.KernelIdeal.Scores.tails_eq m c).trans rfl

theorem rels_agree (m : (ℓ : Loc Cert.KernelIdeal.nD Cert.KernelIdeal.τ Cert.KernelIdeal.sig) → Buf (Elt Ideal) ℓ)
    (c : Dev Cert.KernelIdeal.nD) :
    Cert.KernelIdeal.Scores.rels m c
      = Cert.ReferenceIdeal.Read.val_main_v20 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg4)) :=
  (Cert.KernelIdeal.Scores.rels_eq m c).trans rfl

/-- The two results are one function of the arguments: at row `j` both are the score of row `j` of the looked-up
    head, relation and tail tables — the kernel's through its staged, narrowed tables (narrowing is the identity here),
    the reference's through its host operations. -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v29_eq]
  funext j
  refine (Cert.ReferenceIdeal.Scores.result_apply _ _ _ _ _ j).trans ?_
  exact DistMult.score_congr (heads_agree m c).symm (rels_agree m c).symm (tails_agree m c).symm _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
